-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x32 : Shape := ⟨2, ![4096, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn {F : FTy → Type} [FloatOps F] (main_arg0 : FVec F S4x2048x4096 .f32) (main_arg1 : FVec F S4096x4096 .f32) (main_arg2 : FVec F S4096x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096x32 : Shape := ⟨2, ![4096, 32]⟩
abbrev S256x4096 : Shape := ⟨2, ![256, 4096]⟩
abbrev S256x32 : Shape := ⟨2, ![256, 32]⟩
abbrev S256x32x128 : Shape := ⟨3, ![256, 32, 128]⟩
abbrev S256x32x1 : Shape := ⟨3, ![256, 32, 1]⟩
abbrev S8192x4096 : Shape := ⟨2, ![8192, 4096]⟩
abbrev S128x4096 : Shape := ⟨2, ![128, 4096]⟩

abbrev nBuf : Space → Nat
  | .hbm => 7
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x32, .f32⟩
  | .hbm, ⟨3, _⟩ => ⟨S4096x4096, .bf16⟩
  | .hbm, ⟨4, _⟩ => ⟨S8192x4096, .f32⟩
  | .hbm, ⟨5, _⟩ => ⟨S8192x4096, .f32⟩
  | .hbm, ⟨6, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x32, .f32⟩
  | .local _ .vmem, ⟨3, _⟩ => ⟨S256x32, .f32⟩
  | .local _ .vmem, ⟨4, _⟩ => ⟨S256x4096, .bf16⟩
  | .local _ .vmem, ⟨5, _⟩ => ⟨S256x4096, .bf16⟩
  | .local _ .vmem, ⟨6, _⟩ => ⟨S128x4096, .f32⟩
  | .local _ .vmem, ⟨7, _⟩ => ⟨S128x4096, .f32⟩
  | .local _ .vmem, ⟨8, _⟩ => ⟨S4096x4096, .bf16⟩
  | .local _ .vmem, ⟨9, _⟩ => ⟨S128x4096, .f32⟩
  | .local _ .vmem, ⟨10, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  shapeCasts_S256x4096_S256x32x128 : S256x4096.ShapeCasts S256x32x128
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  shapeCasts_S8192x4096_S4x2048x4096 : S8192x4096.ShapeCasts S4x2048x4096
  dot_S128x4096_S4096x4096_S128x4096_1_1_0_0_n_n_wf : DotDims.WF S128x4096 S4096x4096 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S4096x32.size a
  hwx0_1 : ∀ i : grid0.Coords, EltTy.bits .f32 = 32 ∨ (Rect.block (s := S4096x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .f32 = 32 ∨ (Rect.block (s := S8192x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S8192x4096.size a
  hwx1_2 : ∀ i : grid1.Coords, EltTy.bits .f32 = 32 ∨ (Rect.block (s := S8192x4096) S128x4096.size (cc1_transform_2 i) (hinb1_2 i)).WholeWords (EltTy.packing .f32)

variable [Facts₀]

def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x32 : Shape := ⟨2, ![4096, 32]⟩
abbrev S4096x32x128 : Shape := ⟨3, ![4096, 32, 128]⟩
abbrev S_ : Shape := ⟨0, ![]⟩
abbrev S4096x32x1 : Shape := ⟨3, ![4096, 32, 1]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x32, .f32⟩
  | .hbm, ⟨3, _⟩ => ⟨S4096x32x128, .f32⟩
  | .hbm, ⟨4, _⟩ => ⟨S_, .f32⟩
  | .hbm, ⟨5, _⟩ => ⟨S4096x32x128, .f32⟩
  | .hbm, ⟨6, _⟩ => ⟨S4096x32x128, .i1⟩
  | .hbm, ⟨7, _⟩ => ⟨S_, .f32⟩
  | .hbm, ⟨8, _⟩ => ⟨S_, .f32⟩
  | .hbm, ⟨9, _⟩ => ⟨S4096x32x128, .f32⟩
  | .hbm, ⟨10, _⟩ => ⟨S4096x32x128, .f32⟩
  | .hbm, ⟨11, _⟩ => ⟨S4096x32x128, .f32⟩
  | .hbm, ⟨12, _⟩ => ⟨S4096x32x128, .f32⟩
  | .hbm, ⟨13, _⟩ => ⟨S_, .f32⟩
  | .hbm, ⟨14, _⟩ => ⟨S4096x32, .f32⟩
  | .hbm, ⟨15, _⟩ => ⟨S4096x32, .f32⟩
  | .hbm, ⟨16, _⟩ => ⟨S4096x32x1, .f32⟩
  | .hbm, ⟨17, _⟩ => ⟨S4096x32x128, .f32⟩
  | .hbm, ⟨18, _⟩ => ⟨S4096x32x128, .f32⟩
  | .hbm, ⟨19, _⟩ => ⟨S4096x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  shapeCasts_S4096x4096_S4096x32x128 : S4096x4096.ShapeCasts S4096x32x128
  bcast_S_S4096x32x128 : S_.BroadcastsInDim S4096x32x128 (![] : Fin 0 → Fin S4096x32x128.rank)
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelRun.lean ====
/-
  The kernel program's run with its result named.

  The program is four segments in a row: the quantizing call, a reshape of `x` on the host, the matrix-product call,
  a reshape of the product on the host.  The contents of every buffer at each of the four boundaries are a fold from
  the launch memory (`W0 … W4` of the generated frame module), and every weakly fair execution ends with every
  buffer that outlives the calls at the last boundary's contents.  Read at the result buffer this names the result;
  read at the three arguments it gives them back as launched.
-/
import proofs.«102688_j61838939127937_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the three arguments as launched. -/
theorem run_result : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.KernelRun

end
-- ==== Proof.QuantLinearSpec.lean ====
/-
  The function both programs compute, stated once over the argument arrays and read at the ideal instance
  (every float an extended real, every operation exact, a change of float format the identity).

  A weight matrix `w : [4096, 4096]` is quantized entry by entry against a table of group scales
  `s : [4096, 32]`: entry `(o, k)` belongs to group `k / 128` of row `o` and becomes
  `sgn (w o k) · max (s o (k / 128)) c`, where `sgn` is `+1` on `w o k ≥ 0` and `-1` otherwise and `c` is the
  positive floor of the scales.  The result is the linear map `x ↦ x · qᵀ` applied to every row of
  `x : [4, 2048, 4096]`:  `out b r o = ∑ k, x b r k · q o k`.
-/
import Idealize.ShloMosaic.PureOps.Ideal
import Idealize.ShloMosaic.Lib.ValueIdx

noncomputable section

namespace QuantLinear

open Idealize.ShloMosaic Idealize.ShloMosaic.ValueIdx

/-- The scale group of weight entry `(o, k)`: row `o`, group `k / 128` (groups are 128 consecutive columns). -/
def grp (o k : Fin 4096) : (⟨2, ![4096, 32]⟩ : Shape).Idx :=
  ix2 o ⟨k.val / 128, by have := k.isLt; omega⟩

/-- One quantized entry from its weight `w` and its group's scale `s`: the sign of `w` (zero counted as positive)
    times the scale clamped from below by the floor constant. -/
def qentry (w s : EReal) : EReal :=
  FloatOps.mulf (F := Ideal) (φ := .f32)
    (Scalar.select (FloatOps.cmpf (F := Ideal) (φ := .f32) .oge w (FloatOps.ofBits (F := Ideal) .f32 0x00000000#32))
      (FloatOps.ofBits (F := Ideal) .f32 0x3F800000#32) (FloatOps.ofBits (F := Ideal) .f32 0xBF800000#32))
    (FloatOps.maximumf (F := Ideal) (φ := .f32) s (FloatOps.ofBits (F := Ideal) .f32 0x322BCC77#32))

/-- The quantized weight matrix, entry by entry. -/
def qweight (w : (⟨2, ![4096, 4096]⟩ : Shape).Idx → EReal) (s : (⟨2, ![4096, 32]⟩ : Shape).Idx → EReal) :
    (⟨2, ![4096, 4096]⟩ : Shape).Idx → EReal :=
  fun j => qentry (w j) (s (grp (j 0) (j 1)))

/-- Rows of `a : [8192, 4096]` against rows of `q : [4096, 4096]`: `(a · qᵀ) r o = ∑ k, a r k · q o k`. -/
def rowsDot (a : (⟨2, ![8192, 4096]⟩ : Shape).Idx → EReal) (q : (⟨2, ![4096, 4096]⟩ : Shape).Idx → EReal) :
    (⟨2, ![8192, 4096]⟩ : Shape).Idx → EReal :=
  fun j => ∑ k : Fin 4096, a (ix2 (j 0) k) * q (ix2 (j 1) k)

/-- The whole result: every row of `x` against the quantized weight. -/
def qlinear (x : (⟨3, ![4, 2048, 4096]⟩ : Shape).Idx → EReal) (w : (⟨2, ![4096, 4096]⟩ : Shape).Idx → EReal)
    (s : (⟨2, ![4096, 32]⟩ : Shape).Idx → EReal) : (⟨3, ![4, 2048, 4096]⟩ : Shape).Idx → EReal :=
  fun i => ∑ k : Fin 4096, x (ix3 (i 0) (i 1) k) * qweight w s (ix2 (i 2) k)

end QuantLinear

end
-- ==== Proof.QuantBody.lean ====
/-
  What the quantizing kernel's body stores, read at one entry of its 256-row block.

  The body views its block of weights `[256, 4096]` as `[256, 32, 128]` (32 groups of 128 lanes per row), takes the
  sign of every entry there, multiplies by the row's clamped group scales — the `[256, 32]` block of scales viewed
  as `[256, 32, 1]` and repeated along the lanes — and views the product as `[256, 4096]` again.  Entry `(p, q)` of
  the block goes to `(p, q / 128, q % 128)` and back, so it ends as the sign of its own weight times the clamped
  scale of group `(p, q / 128)`: one `QuantLinear.qentry`.
-/
import proofs.«102688_j61838939127937_1_alg».proof.Proof.Gen.KernelIdeal.Skeleton
import proofs.«102688_j61838939127937_1_alg».proof.Proof.QuantLinearSpec
import Idealize.ShloMosaic.Lib.Pipeline.Value
import Idealize.ShloMosaic.Lib.ValueIdx

noncomputable section

namespace Cert.KernelIdeal.QuantBody

open Cert.KernelIdeal Cert.KernelIdeal.Gen Idealize.ShloMosaic Idealize.ShloMosaic.ValueIdx QuantLinear

variable {α : Type}

/-- `[256, 32, 128] → [256, 4096]`: column `q` of row `p` is lane `q % 128` of group `q / 128`. -/
theorem flatten_apply (y : S256x32x128.Idx → α) (h : S256x32x128.ShapeCasts S256x4096) (p : Fin 256) (q : Fin 4096) :
    shapeCast S256x4096 y h (ix2 p q)
      = y (ix3 p ⟨q.val / 128, by have := q.isLt; omega⟩ ⟨q.val % 128, Nat.mod_lt _ (by decide)⟩) :=
  shapeCast_apply y h _ _ (by
    rewrite [Shape.rowMajor_val_three, Shape.rowMajor_val_two]
    show (p.val * 32 + q.val / 128) * 128 + q.val % 128 = p.val * 4096 + q.val
    omega)

/-- `[256, 4096] → [256, 32, 128]`: lane `l` of group `g` of row `p` is column `g · 128 + l`. -/
theorem groups_apply (y : S256x4096.Idx → α) (h : S256x4096.ShapeCasts S256x32x128) (p : Fin 256) (g : Fin 32)
    (l : Fin 128) (q : Fin 4096) (hq : q.val = g.val * 128 + l.val) :
    shapeCast S256x32x128 y h (ix3 p g l) = y (ix2 p q) :=
  shapeCast_apply y h _ _ (by
    rewrite [Shape.rowMajor_val_two, Shape.rowMajor_val_three]
    show p.val * 4096 + q.val = (p.val * 32 + g.val) * 128 + l.val
    omega)

/-- `[256, 32] → [256, 32, 1]`: a trailing unit axis. -/
theorem column_apply (y : S256x32.Idx → α) (h : S256x32.ShapeCasts S256x32x1) (p : Fin 256) (g : Fin 32) (z : Fin 1) :
    shapeCast S256x32x1 y h (ix3 p g z) = y (ix2 p g) :=
  shapeCast_apply y h _ _ (by
    rewrite [Shape.rowMajor_val_two, Shape.rowMajor_val_three]
    show p.val * 32 + g.val = (p.val * 32 + g.val) * 1 + z.val
    have := z.isLt; omega)

/-- `[256, 32, 1] → [256, 32, 128]`: every lane of a group reads the group's one value. -/
theorem lanes_apply (y : S256x32x1.Idx → α) (h : S256x32x1.Broadcasts S256x32x128) (p : Fin 256) (g : Fin 32) (l : Fin 128) :
    broadcastTo S256x32x128 y h (ix3 p g l) = y (ix3 p g 0) :=
  broadcastTo_apply y h _ _ (fun a => by
    match a with
    | ⟨0, _⟩ => show p.val = if (256 : Nat) = 1 then 0 else p.val; rw [if_neg (by decide)]
    | ⟨1, _⟩ => show g.val = if (32 : Nat) = 1 then 0 else g.val; rw [if_neg (by decide)]
    | ⟨2, _⟩ => show 0 = if (1 : Nat) = 1 then 0 else l.val; rw [if_pos rfl])

/-- Entry `(p, q)` of what the body stores: the quantized entry of weight `(p, q)` and the scale of group
    `(p, q / 128)` of the two loaded blocks. -/
theorem pay_apply (v0 : Vec Ideal S256x4096 .f32) (v1 : Vec Ideal S256x32 .f32) (p : Fin 256) (q : Fin 4096) :
    k0_pay1 (F := Ideal) v0 v1 (ix2 p q)
      = qentry (v0 (ix2 p q)) (v1 (ix2 p ⟨q.val / 128, by have := q.isLt; omega⟩)) := by
  unfold k0_pay1
  rw [truncf_apply, flatten_apply, mulf_apply, select_apply, cmpf_apply, broadcast_apply, broadcast_apply, broadcast_apply,
    groups_apply _ _ p _ _ q (by show q.val = q.val / 128 * 128 + q.val % 128; omega),
    lanes_apply, column_apply, maximumf_apply, broadcast_apply]
  rfl

end Cert.KernelIdeal.QuantBody

end
-- ==== Proof.QuantRegion.lean ====
/-
  The quantizing call as a whole: what its output array holds when it returns.

  The call runs 16 grid points; point `t` is handed rows `256·t … 256·t + 255` of the weight (all 4096 columns), the
  same rows of the scale table (all 32 groups), and writes the same rows of the output.  What it writes is, entry by
  entry, the quantized entry of the weight and of its group's scale (the body, read at an entry), and the group of
  column `q` of a block is the group of the same column of the whole matrix.  So each point writes back ITS ROWS OF ONE
  matrix, `QuantLinear.qweight` of the two arrays as the call finds them, and the sixteen row blocks cover the matrix:
  the output array ends as that matrix.
-/
import proofs.«102688_j61838939127937_1_alg».proof.Proof.Gen.KernelIdeal.Frame
import proofs.«102688_j61838939127937_1_alg».proof.Proof.QuantBody

set_option maxRecDepth 16384

noncomputable section

namespace Cert.KernelIdeal.QuantRegion

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open QuantLinear

-- the contents of the TensorCore's buffers when the call is entered
variable (V : (c : Dev nD) → (b : Ref sig .tc) → Buf (Elt Ideal) ((c : Thread nD τ).loc b))

theorem zeros : (![0, 0] : Fin 2 → Nat) = fun _ => 0 := funext fun a => by fin_cases a <;> rfl

/-- An entry of the stored block from the two loaded blocks, at any block index. -/
theorem block_entry (x0 : Vec Ideal S256x4096 .f32) (x1 : Vec Ideal S256x32 .f32) (y : S256x4096.Idx) :
    k0_pay1 (F := Ideal) x0 x1 y
      = qentry (x0 y) (x1 (ix2 (n0 := 256) (n1 := 32) (y 0) ⟨(y 1).val / 128, by have h : (y 1).val < 4096 := (y 1).isLt; omega⟩)) := by
  obtain ⟨p, q, rfl⟩ : ∃ (p : Fin 256) (q : Fin 4096), y = ix2 p q := ⟨y 0, y 1, eq_ix2 y⟩
  exact QuantBody.pay_apply x0 x1 p q

/-- The three windows' block positions at every grid point: block row `t`, block column `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is its rows of the quantized matrix of the arrays as the call finds them. -/
theorem flushed_eq (c : Dev nD) (t : Fin cfg0.N) :
    (dat0 V c).flushed 2 t = ((cfg0.win 2).blk t).view.read (Elt Ideal) (qweight (V c main_arg1) (V c main_arg2)) := by
  show (cfg0.win 2).cut (grid0.coords t) ((dat0 V c).after 2 t) = _
  rw [after0_2]
  unfold out0_2
  rw [View.canon_unit_zero zeros]
  simp only [View.ld_unit_zero (S := S256x4096) zeros, View.ld_unit_zero (S := S256x32) zeros]
  obtain ⟨e0, e1, e2, e3, e4, e5⟩ := idx_facts t
  funext j
  refine (block_entry (iblk0 V c 0 t) (iblk0 V c 1 t) j).trans ?_
  have hj0 : (j 0).val < 256 := (j 0).isLt
  have hj1 : (j 1).val < 4096 := (j 1).isLt
  show qentry (V c main_arg1 (((cfg0.win 0).blk t).view.emb j))
      (V c main_arg2 (((cfg0.win 1).blk t).view.emb (ix2 (n0 := 256) (n1 := 32) (j 0) ⟨(j 1).val / 128, by omega⟩)))
    = qentry (V c main_arg1 (((cfg0.win 2).blk t).view.emb j))
      (V c main_arg2 (grp ((((cfg0.win 2).blk t).view.emb j) 0) ((((cfg0.win 2).blk t).view.emb j) 1)))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb (ix2 (n0 := 256) (n1 := 32) (j 0) ⟨(j 1).val / 128, by omega⟩)
      = grp ((((cfg0.win 2).blk t).view.emb j) 0) ((((cfg0.win 2).blk t).view.emb j) 1) := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 32 + 1 * ((j 1).val / 128) = (win0_2.index t (1 : Fin 2) * 4096 + 1 * (j 1).val) / 128; omega
  rw [h0, h1]

/-- An entry of the matrix is in point `t`'s block iff each coordinate is in the block's range on its axis. -/
theorem mem_blk (t : Fin cfg0.N) (i : S4096x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v0).slice (win0_2.rect t)).set ↔ _
  rw [View.set_slice_whole, Rect.mem_set_unit]
  exact Iff.rfl

/-- Row `r` of the matrix is written by point `r / 256`. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ : ∃ t : Fin cfg0.N, t.val = (i 0).val / 256 :=
    ⟨⟨(i 0).val / 256, by show (i 0).val / 256 < grid0.N; rw [N_0]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- THE OUTPUT ARRAY when the call returns: the quantized matrix of the weight and scale arrays as the call found them. -/
theorem final (c : Dev nD) : (dat0 V c).arrAt 2 cfg0.N = qweight (V c main_arg1) (V c main_arg2) :=
  (dat0 V c).arrAt_eq_of_cover 2 _ (fun t _ => flushed_eq V c t) cover

end Cert.KernelIdeal.QuantRegion

end
-- ==== Proof.MatmulBody.lean ====
/-
  What the matrix-product kernel's body stores, read at one entry of its 128-row block.

  The body contracts the last axis of its block of rows `[128, 4096]` with the last axis of the whole quantized weight
  `[4096, 4096]` into a zero accumulator.  At the ideal instance the narrowing of the rows to the weight's format is
  the identity and the product into zero is the plain sum: entry `(p, n)` is `∑ k, rows p k · weight n k`.
-/
import proofs.«102688_j61838939127937_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.MatmulBody

open Cert.KernelIdeal Cert.KernelIdeal.Gen Idealize.ShloMosaic Idealize.ShloMosaic.ValueIdx

/-- The product's dimension record: both operands contracted along their last axis, no batch axis. -/
abbrev dims := dot_S128x4096_S4096x4096_S128x4096_1_1_0_0_n_n

/-- The left operand is read at the output's row … -/
theorem lhs_row (j : S128x4096.Idx) (q : dims.contr.Idx) : (dims.lhsIdx j q 0).val = (j 0).val := by
  unfold DotDims.lhsIdx
  rw [dif_neg (show ¬(0 : Fin S128x4096.rank) ∈ dims.lhsBatch by decide),
    dif_pos (show (0 : Fin S128x4096.rank) ∈ dims.lhsNonContracting by decide)]
  rfl
/-- … and the contracted position; -/
theorem lhs_contr (j : S128x4096.Idx) (q : dims.contr.Idx) : (dims.lhsIdx j q 1).val = (q ⟨0, by decide⟩).val :=
  dims.lhsIdx_val_of_single rfl j q
/-- the right operand at the output's column (a row of the weight) … -/
theorem rhs_row (j : S128x4096.Idx) (q : dims.contr.Idx) : (dims.rhsIdx j q 0).val = (j 1).val := by
  unfold DotDims.rhsIdx
  rw [dif_neg (show ¬(0 : Fin S4096x4096.rank) ∈ dims.rhsBatch by decide),
    dif_pos (show (0 : Fin S4096x4096.rank) ∈ dims.rhsNonContracting by decide)]
  rfl
/-- … and the contracted position. -/
theorem rhs_contr (j : S128x4096.Idx) (q : dims.contr.Idx) : (dims.rhsIdx j q 1).val = (q ⟨0, by decide⟩).val :=
  dims.rhsIdx_val_of_single rfl j q

/-- Entry `(p, n)` of what the body stores: row `p` of the loaded rows against row `n` of the loaded weight. -/
theorem pay_apply (v0 : Vec Ideal S128x4096 .f32) (v3 : Vec Ideal S4096x4096 .bf16) (p : Fin 128) (n : Fin 4096) :
    k1_pay1 (F := Ideal) v0 v3 (ix2 p n) = ∑ k : Fin 4096, v0 (ix2 p k) * v3 (ix2 n k) := by
  unfold k1_pay1
  rw [shapeCast_self, shapeCast_self]
  refine (Ideal.matmul_constant_zero_apply (φ₁ := .bf16) (φ₂ := .bf16) dims none (truncf .bf16 v0 bitsLt_bf16_f32) v3 (ix2 p n)).trans ?_
  rw [← Equiv.sum_comp (contrEquiv1 dims 4096 rfl rfl).symm]
  refine Finset.sum_congr rfl fun k _ => ?_
  have hk := contrEquiv1_symm_val dims 4096 rfl rfl k
  have el : dims.lhsIdx (ix2 p n) ((contrEquiv1 dims 4096 rfl rfl).symm k) = ix2 p k := funext fun a => Fin.ext (by
    match a with
    | ⟨0, _⟩ => exact lhs_row _ _
    | ⟨1, _⟩ => exact (lhs_contr _ _).trans hk)
  have er : dims.rhsIdx (ix2 p n) ((contrEquiv1 dims 4096 rfl rfl).symm k) = ix2 n k := funext fun a => Fin.ext (by
    match a with
    | ⟨0, _⟩ => exact rhs_row _ _
    | ⟨1, _⟩ => exact (rhs_contr _ _).trans hk)
  rw [el, er]
  rfl

end Cert.KernelIdeal.MatmulBody

end
-- ==== Proof.MatmulRegion.lean ====
/-
  The matrix-product call as a whole: what its output array holds when it returns.

  The call runs 64 grid points; point `t` is handed rows `128·t … 128·t + 127` of the row matrix `[8192, 4096]`, the
  WHOLE weight `[4096, 4096]` at every point, and writes rows `128·t … 128·t + 127` of the output.  Entry `(p, n)` of
  what it writes is row `p` of its rows against row `n` of the weight (the body, read at an entry), that is entry
  `(128·t + p, n)` of ONE matrix: the rows-against-rows product `QuantLinear.rowsDot` of the two arrays as the call
  finds them.  The sixty-four row blocks cover the output, which therefore ends as that product.
-/
import proofs.«102688_j61838939127937_1_alg».proof.Proof.Gen.KernelIdeal.Frame
import proofs.«102688_j61838939127937_1_alg».proof.Proof.MatmulBody
import proofs.«102688_j61838939127937_1_alg».proof.Proof.QuantLinearSpec

set_option maxRecDepth 16384

noncomputable section

namespace Cert.KernelIdeal.MatmulRegion

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open QuantLinear

-- the contents of the TensorCore's buffers when the call is entered
variable (V : (c : Dev nD) → (b : Ref sig .tc) → Buf (Elt Ideal) ((c : Thread nD τ).loc b))

theorem zeros : (![0, 0] : Fin 2 → Nat) = fun _ => 0 := funext fun a => by fin_cases a <;> rfl

/-- An entry of the stored block from the two loaded blocks, at any block index. -/
theorem block_entry (x0 : Vec Ideal S128x4096 .f32) (x1 : Vec Ideal S4096x4096 .bf16) (y : S128x4096.Idx) :
    k1_pay1 (F := Ideal) x0 x1 y
      = ∑ k : Fin 4096, x0 (ix2 (n0 := 128) (n1 := 4096) (y 0) k) * x1 (ix2 (n0 := 4096) (n1 := 4096) (y 1) k) := by
  obtain ⟨p, n, rfl⟩ : ∃ (p : Fin 128) (n : Fin 4096), y = ix2 p n := ⟨y 0, y 1, eq_ix2 y⟩
  exact MatmulBody.pay_apply x0 x1 p n

/-- The three windows' block positions at every grid point: the rows and the output at block row `t`, the weight
    always at its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is its rows of the product of the two arrays as the call finds them. -/
theorem flushed_eq (c : Dev nD) (t : Fin cfg1.N) :
    (dat1 V c).flushed 2 t = ((cfg1.win 2).blk t).view.read (Elt Ideal) (rowsDot (V c main_v1) (V c main_v0)) := by
  show (cfg1.win 2).cut (grid1.coords t) ((dat1 V c).after 2 t) = _
  rw [after1_2]
  unfold out1_2
  rw [View.canon_unit_zero zeros]
  simp only [View.ld_unit_zero (S := S128x4096) zeros, View.ld_unit_zero (S := S4096x4096) zeros]
  obtain ⟨e0, e1, e2, e3, e4, e5⟩ := idx_facts t
  funext j
  refine (block_entry (iblk1 V c 0 t) (iblk1 V c 1 t) j).trans ?_
  have hj0 : (j 0).val < 128 := (j 0).isLt
  have hj1 : (j 1).val < 4096 := (j 1).isLt
  rw [View.read_apply]
  unfold rowsDot
  refine Finset.sum_congr rfl fun k _ => ?_
  have h0 : ((cfg1.win 0).blk t).view.emb (ix2 (n0 := 128) (n1 := 4096) (j 0) k)
      = ix2 (n0 := 8192) (n1 := 4096) ((((cfg1.win 2).blk t).view.emb j) 0) k := by
    funext a; apply Fin.ext
    match a with
    | ⟨0, _⟩ => show win1_0.index t (0 : Fin 2) * 128 + 1 * (j 0).val = win1_2.index t (0 : Fin 2) * 128 + 1 * (j 0).val; omega
    | ⟨1, _⟩ => show win1_0.index t (1 : Fin 2) * 4096 + 1 * k.val = k.val; omega
  have h1 : ((cfg1.win 1).blk t).view.emb (ix2 (n0 := 4096) (n1 := 4096) (j 1) k)
      = ix2 (n0 := 4096) (n1 := 4096) ((((cfg1.win 2).blk t).view.emb j) 1) k := by
    funext a; apply Fin.ext
    match a with
    | ⟨0, _⟩ => show win1_1.index t (0 : Fin 2) * 4096 + 1 * (j 1).val = win1_2.index t (1 : Fin 2) * 4096 + 1 * (j 1).val; omega
    | ⟨1, _⟩ => show win1_1.index t (1 : Fin 2) * 4096 + 1 * k.val = k.val; omega
  have a0 : iblk1 V c 0 t (ix2 (n0 := 128) (n1 := 4096) (j 0) k)
      = V c main_v1 (ix2 (n0 := 8192) (n1 := 4096) ((((cfg1.win 2).blk t).view.emb j) 0) k) := by
    show V c main_v1 (((cfg1.win 0).blk t).view.emb (ix2 (n0 := 128) (n1 := 4096) (j 0) k)) = _
    rw [h0]
  have a1 : iblk1 V c 1 t (ix2 (n0 := 4096) (n1 := 4096) (j 1) k)
      = V c main_v0 (ix2 (n0 := 4096) (n1 := 4096) ((((cfg1.win 2).blk t).view.emb j) 1) k) := by
    show V c main_v0 (((cfg1.win 1).blk t).view.emb (ix2 (n0 := 4096) (n1 := 4096) (j 1) k)) = _
    rw [h1]
  rw [a0, a1]

/-- An entry of the output is in point `t`'s block iff each coordinate is in the block's range on its axis. -/
theorem mem_blk (t : Fin cfg1.N) (i : S8192x4096.Idx) :
    i ∈ ((cfg1.win 2).blk t).view.set ↔ ∀ a : Fin 2, win1_2.index t a * S128x4096.size a ≤ (i a).val
      ∧ (i a).val < win1_2.index t a * S128x4096.size a + S128x4096.size a := by
  show i ∈ ((View.whole main_v2).slice (win1_2.rect t)).set ↔ _
  rw [View.set_slice_whole, Rect.mem_set_unit]
  exact Iff.rfl

/-- Row `r` of the output is written by point `r / 128`. -/
theorem cover (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ : ∃ t : Fin cfg1.N, t.val = (i 0).val / 128 :=
    ⟨⟨(i 0).val / 128, by show (i 0).val / 128 < grid1.N; rw [N_1]; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 4096 ≤ (i 1).val ∧ (i 1).val < win1_2.index t (1 : Fin 2) * 4096 + 4096; omega

/-- THE OUTPUT ARRAY when the call returns: the rows of the first array against the rows of the second. -/
theorem final (c : Dev nD) : (dat1 V c).arrAt 2 cfg1.N = rowsDot (V c main_v1) (V c main_v0) :=
  (dat1 V c).arrAt_eq_of_cover 2 _ (fun t _ => flushed_eq V c t) cover

end Cert.KernelIdeal.MatmulRegion

end
-- ==== Proof.RowsReshape.lean ====
/-
  The two reshapes around the matrix product, read at an index, and the specification through them.

  `x : [4, 2048, 4096]` is flattened to `[8192, 4096]` (row `b·2048 + r` is row `r` of batch `b`), multiplied rows
  against rows with the quantized weight, and the `[8192, 4096]` product is split back to `[4, 2048, 4096]`.  Entry
  `(b, r, o)` of the result is therefore `∑ k, x b r k · q o k`: the specification `QuantLinear.qlinear`.
-/
import proofs.«102688_j61838939127937_1_alg».proof.Proof.QuantLinearSpec
import Idealize.ShloMosaic.Lib.Pipeline.Value

noncomputable section

namespace QuantLinear

open Idealize.ShloMosaic Idealize.ShloMosaic.ValueIdx

abbrev Batches : Shape := ⟨3, ![4, 2048, 4096]⟩
abbrev Rows : Shape := ⟨2, ![8192, 4096]⟩

variable {α : Type}

/-- `[4, 2048, 4096] → [8192, 4096]`: row `b·2048 + r` is row `r` of batch `b`. -/
theorem rows_apply (x : Batches.Idx → α) (h : Batches.ShapeCasts Rows) (b : Fin 4) (r : Fin 2048) (k : Fin 4096)
    (R : Fin 8192) (hR : R.val = b.val * 2048 + r.val) :
    shapeCast Rows x h (ix2 R k) = x (ix3 b r k) :=
  shapeCast_apply x h _ _ (by
    rewrite [Shape.rowMajor_val_three, Shape.rowMajor_val_two]
    show (b.val * 2048 + r.val) * 4096 + k.val = R.val * 4096 + k.val
    omega)

/-- `[8192, 4096] → [4, 2048, 4096]`: row `r` of batch `b` is row `b·2048 + r`. -/
theorem batches_apply (y : Rows.Idx → α) (h : Rows.ShapeCasts Batches) (b : Fin 4) (r : Fin 2048) (o : Fin 4096)
    (R : Fin 8192) (hR : R.val = b.val * 2048 + r.val) :
    shapeCast Batches y h (ix3 b r o) = y (ix2 R o) :=
  shapeCast_apply y h _ _ (by
    rewrite [Shape.rowMajor_val_two, Shape.rowMajor_val_three]
    show R.val * 4096 + o.val = (b.val * 2048 + r.val) * 4096 + o.val
    omega)

/-- Flatten, multiply rows against the quantized weight's rows, split back: the specification. -/
theorem qlinear_of_rows (x : Batches.Idx → EReal) (w : (⟨2, ![4096, 4096]⟩ : Shape).Idx → EReal)
    (s : (⟨2, ![4096, 32]⟩ : Shape).Idx → EReal) (h1 : Batches.ShapeCasts Rows) (h2 : Rows.ShapeCasts Batches) :
    shapeCast Batches (rowsDot (shapeCast Rows x h1) (qweight w s)) h2 = qlinear x w s := by
  funext i
  obtain ⟨b, r, o, rfl⟩ : ∃ (b : Fin 4) (r : Fin 2048) (o : Fin 4096), i = ix3 b r o := ⟨i 0, i 1, i 2, eq_ix3 i⟩
  have hlt : b.val * 2048 + r.val < 8192 := by have := b.isLt; have := r.isLt; omega
  rw [batches_apply _ h2 b r o ⟨b.val * 2048 + r.val, hlt⟩ rfl]
  show ∑ k : Fin 4096, shapeCast Rows x h1 (ix2 (n0 := 8192) (n1 := 4096) ⟨b.val * 2048 + r.val, hlt⟩ k) * qweight w s (ix2 o k)
    = ∑ k : Fin 4096, x (ix3 b r k) * qweight w s (ix2 o k)
  refine Finset.sum_congr rfl fun k _ => ?_
  rw [rows_apply x h1 b r k ⟨b.val * 2048 + r.val, hlt⟩ rfl]

end QuantLinear

end
-- ==== Proof.KernelValue.lean ====
/-
  The kernel program's result as one function of its three arguments.

  Walking the boundaries backwards from the last one: the result is the split `[8192, 4096] → [4, 2048, 4096]` of the
  matrix-product call's output; that output is the rows of the call's first array against the rows of its second
  (`MatmulRegion.final`); the first array is the host's flattening of `x`, which the quantizing call never touched;
  the second is the quantizing call's output, which the host's flattening left alone, and it is the quantized matrix
  of the weight and the scale table as launched (`QuantRegion.final`).  Through the two reshapes this is the
  specification `QuantLinear.qlinear` of the launch contents of the three arguments.
-/
import proofs.«102688_j61838939127937_1_alg».proof.Proof.KernelRun
import proofs.«102688_j61838939127937_1_alg».proof.Proof.QuantRegion
import proofs.«102688_j61838939127937_1_alg».proof.Proof.MatmulRegion
import proofs.«102688_j61838939127937_1_alg».proof.Proof.RowsReshape
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL Idealize.SL.Sem
open QuantLinear

variable (m : (ℓ : Loc nD τ sig) → Buf (Elt Ideal) ℓ) (ρ : Dev nD → PrngReg)

/-- After the quantizing call its output array is the quantized matrix of the weight and the scales as launched. -/
theorem quantized (c : Dev nD) :
    W1 m ρ c (Proc.devRef .tc main_v0)
      = qweight (m ((c : Thread nD τ).loc main_arg1)) (m ((c : Thread nD τ).loc main_arg2)) :=
  (W1_arr m ρ c 2).trans (QuantRegion.final (V0 m ρ) c)

/-- The host's flattening of `x` reads the launch contents: the quantizing call does not write `x`. -/
theorem rows (c : Dev nD) :
    W2 m ρ c (Proc.devRef .tc main_v1)
      = shapeCast S8192x4096 (m ((c : Thread nD τ).loc main_arg0)) shapeCasts_S4x2048x4096_S8192x4096 := by
  show StableHlo.after hostOps1 (W1 m ρ c) (Proc.devRef .tc main_v1) = _
  after_results
  rw [W1_of_ne m ρ c main_arg0 (by decide)]
  rfl

/-- The host's flattening leaves the quantized matrix where it is. -/
theorem weight_kept (c : Dev nD) :
    W2 m ρ c (Proc.devRef .tc main_v0) = W1 m ρ c (Proc.devRef .tc main_v0) := by
  show StableHlo.after hostOps1 (W1 m ρ c) (Proc.devRef .tc main_v0) = _
  after_results

/-- After the matrix-product call its output array is the flattened `x` against the quantized matrix, rows by rows. -/
theorem product (c : Dev nD) :
    W3 m ρ c (Proc.devRef .tc main_v2)
      = rowsDot (W2 m ρ c (Proc.devRef .tc main_v1)) (W2 m ρ c (Proc.devRef .tc main_v0)) :=
  (W3_arr m ρ c 2).trans (MatmulRegion.final (V2 m ρ) c)

/-- THE RESULT: the last boundary's contents at the result buffer are the specification of the three arguments. -/
theorem result (c : Dev nD) :
    W4 m ρ c (Proc.devRef .tc main_v3)
      = qlinear (m ((c : Thread nD τ).loc main_arg0)) (m ((c : Thread nD τ).loc main_arg1)) (m ((c : Thread nD τ).loc main_arg2)) := by
  have e : W4 m ρ c (Proc.devRef .tc main_v3)
      = shapeCast S4x2048x4096 (W3 m ρ c (Proc.devRef .tc main_v2)) shapeCasts_S8192x4096_S4x2048x4096 := by
    show StableHlo.after hostOps2 (W3 m ρ c) (Proc.devRef .tc main_v3) = _
    after_results
    rfl
  rw [e, product, rows, weight_kept, quantized]
  exact qlinear_of_rows _ _ _ _ _

end Cert.KernelIdeal.KernelValue

end
-- ==== Proof.ReferenceIsSpec.lean ====
/-
  The reference program's result, read one operation at a time, is the specification `QuantLinear.qlinear` of its
  three arguments.  The reference reshapes the weight to `[4096, 32, 128]`, takes signs there, multiplies by the
  clamped scales broadcast along the last axis, reshapes back and contracts the last axis of `x` with the last axis
  of the quantized weight; entry `(o, k)` of the matrix goes to `(o, k / 128, k % 128)` and back, and its scale is
  the one of group `(o, k / 128)`.
-/
import proofs.«102688_j61838939127937_1_alg».proof.Proof.Gen.ReferenceIdeal.Read
import proofs.«102688_j61838939127937_1_alg».proof.Proof.QuantLinearSpec

noncomputable section

namespace Cert.ReferenceIdeal.RefValue

open Cert.ReferenceIdeal Cert.ReferenceIdeal.Read Idealize.ShloMosaic Idealize.ShloMosaic.ValueIdx QuantLinear

/-- Through the two reshapes an entry of the matrix comes back to itself. -/
theorem idx_there_and_back (j : S4096x4096.Idx) : idx_main_v0 (idx_main_v10 j) = j := by
  have h0 : (j 0).val < 4096 := (j 0).isLt
  have h1 : (j 1).val < 4096 := (j 1).isLt
  funext a; apply Fin.ext
  match a with
  | ⟨0, _⟩ =>
    show ((((j 0).val * 4096 + (j 1).val) / 4096 * 32 + ((j 0).val * 4096 + (j 1).val) / 128 % 32) * 128
      + ((j 0).val * 4096 + (j 1).val) % 128) / 4096 = (j 0).val
    omega
  | ⟨1, _⟩ =>
    show ((((j 0).val * 4096 + (j 1).val) / 4096 * 32 + ((j 0).val * 4096 + (j 1).val) / 128 % 32) * 128
      + ((j 0).val * 4096 + (j 1).val) % 128) % 4096 = (j 1).val
    omega

/-- The scale an entry of the matrix meets is its group's. -/
theorem idx_scale (j : S4096x4096.Idx) : idx_main_v7 (idx_main_v8 (idx_main_v10 j)) = grp (j 0) (j 1) := by
  have h0 : (j 0).val < 4096 := (j 0).isLt
  have h1 : (j 1).val < 4096 := (j 1).isLt
  funext a; apply Fin.ext
  match a with
  | ⟨0, _⟩ => show ((j 0).val * 4096 + (j 1).val) / 4096 = (j 0).val; omega
  | ⟨1, _⟩ => show ((j 0).val * 4096 + (j 1).val) / 128 % 32 = (j 1).val / 128; omega

/-- The reference's quantized weight is the specification's, entry by entry. -/
theorem weight_eq (w : S4096x4096.Idx → EReal) (s : S4096x32.Idx → EReal) :
    val_main_v10 (F := Ideal) w s = qweight w s := by
  funext j
  rw [val_main_v10_apply, val_main_v9_apply, val_main_v4_apply, val_main_v3_apply, val_main_v2_apply,
    val_main_v0_apply, val_main_v1_apply, val_main_cst_apply, val_main_call0_v0_apply, val_main_cst_0_apply,
    val_main_call0_v1_apply, val_main_cst_1_apply, val_main_v8_apply, val_main_v7_apply, val_main_v6_apply,
    val_main_v5_apply, val_main_cst_2_apply, idx_there_and_back, idx_scale]
  rfl

/-- The reference's result is the specification of its arguments. -/
theorem result_eq (x : S4x2048x4096.Idx → EReal) (w : S4096x4096.Idx → EReal) (s : S4096x32.Idx → EReal) :
    val_main_v11 (F := Ideal) x w s = qlinear x w s := by
  funext i
  rw [val_main_v11_apply, weight_eq]
  refine Finset.sum_congr rfl fun k _ => ?_
  have el : lidx_main_v11 i k = ix3 (i 0) (i 1) k :=
    funext fun a => by match a with | ⟨0, _⟩ => rfl | ⟨1, _⟩ => rfl | ⟨2, _⟩ => rfl
  have er : ridx_main_v11 i k = ix2 (i 2) k :=
    funext fun a => by match a with | ⟨0, _⟩ => rfl | ⟨1, _⟩ => rfl
  rw [el, er]
  rfl

end Cert.ReferenceIdeal.RefValue

end
-- ==== Proof.lean ====
/-
  The certificate of a quantized linear layer: the kernel program against its reference, at the ideal instance.

  Both programs quantize a weight matrix `w : [4096, 4096]` against group scales `s : [4096, 32]` — entry `(o, k)`
  becomes the sign of `w o k` (zero counted as positive) times `max (s o (k / 128)) c` for one positive constant `c`,
  the same binary word in both programs — and apply the quantized matrix to every row of `x : [4, 2048, 4096]`:
  `out b r o = ∑ k, x b r k · q o k` (`QuantLinear.qlinear`).

  The kernel program does it in two calls with two reshapes on the host: a quantizing call over 16 blocks of 256
  rows, which also narrows the matrix to a 16-bit format (the identity at the ideal instance), and a matrix-product
  call over 64 blocks of 128 rows of the flattened `x`, each against the whole quantized matrix.  Its result buffer
  ends at the specification of the launch contents of its arguments (`KernelValue.result` over `KernelRun.run_result`).
  The reference does the same on the host with one contraction; its result is the specification too
  (`RefValue.result_eq` over its run).  The two sums are the same sum, so no law of the extended reals beyond
  rewriting indices is used and the precondition (finite inputs) is never opened.

  The ideal pass rewrote no operation of the kernel, so the idealized kernel is the kernel's own text read at the
  ideal instance and there is nothing to preserve.  The three frames are the programs' runs with the results dropped.
-/
import proofs.«102688_j61838939127937_1_alg».proof.Defs
import proofs.«102688_j61838939127937_1_alg».proof.Proof.Gen.Kernel
import proofs.«102688_j61838939127937_1_alg».proof.Proof.Gen.Kernel.Frame
import proofs.«102688_j61838939127937_1_alg».proof.Proof.Gen.KernelIdeal
import proofs.«102688_j61838939127937_1_alg».proof.Proof.Gen.KernelIdeal.Frame
import proofs.«102688_j61838939127937_1_alg».proof.Proof.Gen.ReferenceIdeal
import proofs.«102688_j61838939127937_1_alg».proof.Proof.Gen.ReferenceIdeal.Run
import proofs.«102688_j61838939127937_1_alg».proof.Proof.Gen.ReferenceIdeal.Read
import proofs.«102688_j61838939127937_1_alg».proof.Proof.Gen.Pre_finite_inputs
import proofs.«102688_j61838939127937_1_alg».proof.Proof.KernelValue
import proofs.«102688_j61838939127937_1_alg».proof.Proof.ReferenceIsSpec
import Idealize.ShloMosaic.Adequacy
import Idealize.ShloMosaic.Init

noncomputable section

namespace Cert.Proof

open Idealize.ShloMosaic Idealize.ShloMosaic.TcCoe Idealize.SL.Sem

/-- The kernel program as printed runs and gives its arguments back. -/
theorem frame_kernel : Cert.frame_Kernel := fun m ρ _ => Cert.Kernel.Gen.frame m ρ

/-- So does its reading at the ideal instance. -/
theorem frame_kernel_ideal : Cert.frame_KernelIdeal := fun m ρ _ => Cert.KernelIdeal.Gen.frame m ρ

/-- The reference is a line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten on the way to the ideal reading. -/
theorem preserves : Cert.preserves_Kernel_KernelIdeal := trivial

/-- From memories agreeing on the three arguments both programs end with the specification of those arguments in
    their result buffers. -/
theorem algebraic : Cert.algebraic_KernelIdeal_ReferenceIdeal := by
  intro m ρ m' ρ' _ hagree
  refine ⟨fun c => QuantLinear.qlinear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.KernelValue.result m ρ c), (h c).2⟩)
      (Cert.KernelIdeal.KernelRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
